-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S32x256x56x56 .f32) (main_arg1 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S32x256x56x56 : Shape := ⟨4, ![32, 256, 56, 56]⟩
abbrev S256 : Shape := ⟨1, ![256]⟩
abbrev S8192x3136 : Shape := ⟨2, ![8192, 3136]⟩
abbrev S1x256 : Shape := ⟨2, ![1, 256]⟩
abbrev S2x256 : Shape := ⟨2, ![2, 256]⟩
abbrev S512 : Shape := ⟨1, ![512]⟩
abbrev S512x1 : Shape := ⟨2, ![512, 1]⟩
abbrev S512x3136 : Shape := ⟨2, ![512, 3136]⟩

abbrev nBuf : Space → Nat
  | .hbm => 9
  | .vmem => 5
  | .smem => 0
  | _ => 0

abbrev bufTy : (tb : Table) → Fin (tcTables nBuf tb) → BufTy
  | .hbm, ⟨0, _⟩ => ⟨S32x256x56x56, .f32⟩
  | .hbm, ⟨1, _⟩ => ⟨S256, .f32⟩
  | .hbm, ⟨2, _⟩ => ⟨S8192x3136, .f32⟩
  | .hbm, ⟨3, _⟩ => ⟨S1x256, .f32⟩
  | .hbm, ⟨4, _⟩ => ⟨S2x256, .f32⟩
  | .hbm, ⟨5, _⟩ => ⟨S512, .f32⟩
  | .hbm, ⟨6, _⟩ => ⟨S512x1, .f32⟩
  | .hbm, ⟨7, _⟩ => ⟨S8192x3136, .f32⟩
  | .hbm, ⟨8, _⟩ => ⟨S32x256x56x56, .f32⟩
  | .local _ .vmem, ⟨0, _⟩ => ⟨S512x3136, .f32⟩
  | .local _ .vmem, ⟨1, _⟩ => ⟨S512x3136, .f32⟩
  | .local _ .vmem, ⟨2, _⟩ => ⟨S512x1, .f32⟩
  | .local _ .vmem, ⟨3, _⟩ => ⟨S512x3136, .f32⟩
  | .local _ .vmem, ⟨4, _⟩ => ⟨S512x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x256x56x56_S8192x3136 : S32x256x56x56.ShapeCasts S8192x3136
  shapeCasts_S256_S1x256 : S256.ShapeCasts S1x256
  bcast_S1x256_S2x256_0_1 : S1x256.BroadcastsInDim S2x256 (![0, 1] : Fin 2 → Fin S2x256.rank)
  shapeCasts_S2x256_S512 : S2x256.ShapeCasts S512
  shapeCasts_S512_S512x1 : S512.ShapeCasts S512x1
  inb_S512x3136_S512x3136_0_0 : ∀ a, (![0, 0] : Fin 2 → Nat) a + S512x3136.size a ≤ S512x3136.size a
  h_S512x3136 : 0 < S512x3136.numel
  shapeCasts_S512x3136_S512x3136 : S512x3136.ShapeCasts S512x3136
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3136 : S512x1.Broadcasts S512x3136
  shapeCasts_S8192x3136_S32x256x56x56 : S8192x3136.ShapeCasts S32x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3136.size a ≤ S8192x3136.size a
  hwx0_0 : ∀ i : grid0.Coords, EltTy.bits .f32 = 32 ∨ (Rect.block (s := S8192x3136) S512x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3136.size a ≤ S8192x3136.size a
  hwx0_2 : ∀ i : grid0.Coords, EltTy.bits .f32 = 32 ∨ (Rect.block (s := S8192x3136) S512x3136.size (cc0_transform_2 i) (hinb0_2 i)).WholeWords (EltTy.packing .f32)

variable [Facts₀]

abbrev win0_0 : Pipeline.Window sig grid0 :=
  Pipeline.Window.ofSpec (Memref.whole main_v0) S512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3136.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256 : Shape := ⟨1, ![256]⟩
abbrev S1x256x1x1 : Shape := ⟨4, ![1, 256, 1, 1]⟩

abbrev nBuf : Space → Nat
  | .hbm => 5
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256, .f32⟩
  | .hbm, ⟨2, _⟩ => ⟨S1x256x1x1, .f32⟩
  | .hbm, ⟨3, _⟩ => ⟨S32x256x56x56, .f32⟩
  | .hbm, ⟨4, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S256_S1x256x1x1 : S256.ShapeCasts S1x256x1x1
  bcast_S1x256x1x1_S32x256x56x56_0_1_2_3 : S1x256x1x1.BroadcastsInDim S32x256x56x56 (![0, 1, 2, 3] : Fin 4 → Fin S32x256x56x56.rank)

variable [Facts₀]

class Facts : Prop extends Facts₀ where

variable [Facts]
-- ==== Proof.ChannelScale.lean ====
/-
  A batch of images scaled channel by channel.

  The array `x` has shape [32, 256, 56, 56] (image, channel, row, column) and `μ` holds one factor per
  channel; the scaled array has `x (n, c, h, w) · μ c` at (n, c, h, w) (`chanScaled`).

  The same numbers can be laid out as a matrix of 8192 = 32 · 256 rows and 3136 = 56 · 56 columns: entry
  (n, c, h, w) sits in row `n · 256 + c`, column `h · 56 + w`, both arrangements listing the entries in the same
  row-major order. Over that matrix the scale is a scale of ROWS: row `r` is multiplied by the factor of channel
  `r mod 256`. Because 512 = 2 · 256, a column `s` of 512 factors holding the 256 channel factors twice over has
  `μ (r mod 256)` at every position `r < 512`, and row `r` of the matrix may as well read position `r mod 512` of
  it: `(r mod 512) mod 256 = r mod 256` (`rowScaled`). Re-arranging the row-scaled matrix as [32, 256, 56, 56]
  gives back the channel-scaled array (`unflatten_rowScaled`): the channel of row `n · 256 + c` is `c`.

  Nothing here depends on what a product of two numbers is: the statements hold for any multiplication, and both
  sides multiply the array's entry (on the left) by the channel's factor (on the right).
-/
import Idealize.ShloMosaic.Lib.ValueIdx
import Idealize.ShloMosaic.Lib.Pipeline.Value

noncomputable section

namespace Cert.ChannelScale

open Idealize.ShloMosaic Idealize.ShloMosaic.ValueIdx

variable {F : FTy → Type} [FloatOps F]

/-- The image batch: [32, 256, 56, 56]. -/
abbrev Img : Shape := ⟨4, ![32, 256, 56, 56]⟩
/-- The channel factors: [256]. -/
abbrev Chan : Shape := ⟨1, ![256]⟩
/-- The batch as a matrix, one row per (image, channel) pair: [8192, 3136]. -/
abbrev Flat : Shape := ⟨2, ![8192, 3136]⟩
/-- The factors as one row: [1, 256]. -/
abbrev Row : Shape := ⟨2, ![1, 256]⟩
/-- The row repeated: [2, 256]. -/
abbrev Two : Shape := ⟨2, ![2, 256]⟩
/-- The two rows end to end: [512]. -/
abbrev Half : Shape := ⟨1, ![512]⟩
/-- The same as a column: [512, 1]. -/
abbrev Col : Shape := ⟨2, ![512, 1]⟩

/-- The channel-scaled batch: entry (n, c, h, w) of `x` times the factor of channel `c`. -/
def chanScaled (x : FVec F Img .f32) (μ : FVec F Chan .f32) : FVec F Img .f32 :=
  fun i => FloatOps.mulf (x i) (μ (ix1 (⟨(i 1).val, (i 1).isLt⟩ : Fin 256)))

/-- The row-scaled matrix: entry (r, q) of `X` times position `r mod 512` of the column `s`. -/
def rowScaled (X : FVec F Flat .f32) (s : FVec F Col .f32) : FVec F Flat .f32 :=
  fun k => FloatOps.mulf (X k) (s (ix2 (⟨(k 0).val % 512, Nat.mod_lt _ (by decide)⟩ : Fin 512) (⟨0, Nat.one_pos⟩ : Fin 1)))

/-- The column of 512 factors made from the 256 channel factors — as one row, the row repeated, the two rows end to
    end, the result stood up as a column — has the factor of channel `r mod 256` at position `r`: position `r` of the
    two rows end to end is entry `r mod 256` of row `r / 256`, and both rows are the one row of factors. -/
theorem tiled_apply {α : Type} (μ : Chan.Idx → α) (h1 : Chan.ShapeCasts Row)
    (hb : Row.BroadcastsInDim Two (![0, 1] : Fin 2 → Fin 2)) (h3 : Two.ShapeCasts Half) (h4 : Half.ShapeCasts Col)
    (r : Fin 512) :
    shapeCast Col (shapeCast Half (broadcastInDim Two (![0, 1] : Fin 2 → Fin 2) hb (shapeCast Row μ h1)) h3) h4
        (ix2 r (⟨0, Nat.one_pos⟩ : Fin 1))
      = μ (ix1 (⟨r.val % 256, Nat.mod_lt _ (by decide)⟩ : Fin 256)) := by
  have hr : r.val < 512 := r.isLt
  rw [shapeCast_apply _ h4 (ix2 r (⟨0, Nat.one_pos⟩ : Fin 1)) (ix1 r)
    (by rw [Shape.rowMajor_val_one, Shape.rowMajor_val_two]; show r.val = r.val * 1 + 0; omega)]
  rw [shapeCast_apply _ h3 (ix1 r)
    (ix2 (⟨r.val / 256, by omega⟩ : Fin 2) (⟨r.val % 256, Nat.mod_lt _ (by decide)⟩ : Fin 256))
    (by rw [Shape.rowMajor_val_one, Shape.rowMajor_val_two]; show r.val / 256 * 256 + r.val % 256 = r.val; omega)]
  rw [broadcastInDim_apply _ hb _ _
    (ix2 (⟨0, Nat.one_pos⟩ : Fin 1) (⟨r.val % 256, Nat.mod_lt _ (by decide)⟩ : Fin 256))
    (fun a => match a with
      | ⟨0, _⟩ => by show 0 = if (1 : Nat) = 1 then 0 else r.val / 256; rw [if_pos rfl]
      | ⟨1, _⟩ => by show r.val % 256 = if (256 : Nat) = 1 then 0 else r.val % 256; rw [if_neg (by decide)])]
  rw [shapeCast_apply _ h1 _ (ix1 (⟨r.val % 256, Nat.mod_lt _ (by decide)⟩ : Fin 256))
    (by rw [Shape.rowMajor_val_one, Shape.rowMajor_val_two]; show r.val % 256 = 0 * 256 + r.val % 256; omega)]

/-- Flatten the batch to the matrix, scale its rows by a column that has the factor of channel `r mod 256` at every
    position `r`, and arrange the result as a batch again: that is the channel-scaled batch. Entry (n, c, h, w) is
    entry (n · 256 + c, h · 56 + w) of the matrix in both directions, and the factor its row reads is that of channel
    `((n · 256 + c) mod 512) mod 256 = c`. -/
theorem unflatten_rowScaled (x : FVec F Img .f32) (s : FVec F Col .f32) (μ : FVec F Chan .f32)
    (hs : ∀ r : Fin 512, s (ix2 r (⟨0, Nat.one_pos⟩ : Fin 1)) = μ (ix1 (⟨r.val % 256, Nat.mod_lt _ (by decide)⟩ : Fin 256)))
    (h0 : Img.ShapeCasts Flat) (h6 : Flat.ShapeCasts Img) :
    shapeCast Img (rowScaled (shapeCast Flat x h0) s) h6 = chanScaled x μ := by
  funext i
  have hn : (i 0).val < 32 := (i 0).isLt
  have hc : (i 1).val < 256 := (i 1).isLt
  have hh : (i 2).val < 56 := (i 2).isLt
  have hw : (i 3).val < 56 := (i 3).isLt
  have hk : ∀ k : Flat.Idx, (k 0).val = (i 0).val * 256 + (i 1).val → (k 1).val = (i 2).val * 56 + (i 3).val →
      (Flat.rowMajor k).val = (Img.rowMajor i).val := by
    intro k e0 e1
    rw [Shape.rowMajor_val_two, Shape.rowMajor_val_four, e0, e1]
    show ((i 0).val * 256 + (i 1).val) * 3136 + ((i 2).val * 56 + (i 3).val)
      = (((i 0).val * 256 + (i 1).val) * 56 + (i 2).val) * 56 + (i 3).val
    omega
  rw [shapeCast_apply _ h6 i
    (ix2 (⟨(i 0).val * 256 + (i 1).val, by omega⟩ : Fin 8192) (⟨(i 2).val * 56 + (i 3).val, by omega⟩ : Fin 3136))
    (hk _ rfl rfl)]
  unfold rowScaled chanScaled
  rw [shapeCast_apply x h0 _ i (hk _ rfl rfl).symm, hs]
  refine congrArg (FloatOps.mulf (x i)) (congrArg μ ?_)
  funext d
  match d with
  | ⟨0, _⟩ => exact Fin.ext (by show ((i 0).val * 256 + (i 1).val) % 512 % 256 = (i 1).val; omega)

end Cert.ChannelScale

end
-- ==== Proof.KernelRows.lean ====
/-
  What the pipelined region leaves in its output matrix.

  The region works on the batch laid out as a matrix of 8192 rows and 3136 columns, in 16 steps. Step `t` takes rows
  `512 t … 512 t + 511` of the matrix (all 3136 columns), takes the SAME column of 512 factors at every step, multiplies
  row `a` of its block by position `a` of the column, and writes the product to rows `512 t … 512 t + 511` of the output.

  Row `512 t + a` of the output is therefore row `512 t + a` of the input times position `a = (512 t + a) mod 512` of the
  column: every step's block is the corresponding block of ONE matrix, the row-scaled one (`ChannelScale.rowScaled`).
  Every row `r` of the output lies in the block of step `r / 512`, so the 16 blocks cover the output and it ends
  holding the row-scaled matrix whole (`output_matrix`).
-/
import proofs.«104782_j58600533786808_2_alg».proof.Proof.Gen.KernelIdeal.Frame
import proofs.«104782_j58600533786808_2_alg».proof.Proof.ChannelScale
import Idealize.ShloMosaic.Lib.Pipeline.Value
import Idealize.ShloMosaic.Lib.ValueIdx

set_option maxRecDepth 16384

noncomputable section

namespace Cert.KernelIdeal.Rows

open Cert.KernelIdeal Cert.KernelIdeal.Gen Cert.ChannelScale
open Idealize.ShloMosaic Idealize.ShloMosaic.TcCoe Idealize.ShloMosaic.ValueIdx Idealize.SL.Sem
open Idealize.ShloMosaic.Pipeline (Dat Cfg Window)

variable {F : FTy → Type} [FloatOps F]

/-- The block's rectangle inside its staging buffer starts at the origin. -/
theorem origin : (![0, 0] : Fin 2 → Nat) = fun _ => 0 := funext fun a => by fin_cases a <;> rfl

/-- One step's arithmetic at an entry: entry (a, q) of the product is entry (a, q) of the block of rows times
    position `a` of the column of factors — the column is spread along the 3136 columns, and the casts between equal
    shapes change nothing. -/
theorem product_apply (x0 : Vec F S512x3136 .f32) (x1 : Vec F S512x1 .f32) (j : S512x3136.Idx) :
    k0_pay1 x0 x1 j
      = FloatOps.mulf (x0 j) (x1 (ix2 (⟨(j 0).val, (j 0).isLt⟩ : Fin 512) (⟨0, Nat.one_pos⟩ : Fin 1))) := by
  unfold k0_pay1
  dsimp only
  rw [shapeCast_self, shapeCast_self, shapeCast_self]
  show FloatOps.mulf (x0 j) (broadcastTo S512x3136 x1 broadcasts_S512x1_S512x3136 j) = _
  rw [broadcastTo_apply x1 broadcasts_S512x1_S512x3136 j
    (ix2 (⟨(j 0).val, (j 0).isLt⟩ : Fin 512) (⟨0, Nat.one_pos⟩ : Fin 1))
    (fun a => match a with
      | ⟨0, _⟩ => by show (j 0).val = if (512 : Nat) = 1 then 0 else (j 0).val; rw [if_neg (by decide)]
      | ⟨1, _⟩ => by show 0 = if (1 : Nat) = 1 then 0 else (j 1).val; rw [if_pos rfl])]

variable (m : (ℓ : Loc nD τ sig) → Buf (Elt F) ℓ)

/-- Which block each step takes, decided over the 16 steps: step `t` takes block `t` of the input's rows and of the
    output's rows (their one block of columns), and block 0 — the only one — of the column of factors. -/
theorem block_of_step : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What step `t` writes back is block `t` of the row-scaled matrix, of the input matrix and the column of factors as
    the region finds them: the input's block and the output's block are the same rows, and the row `512 t + a` of the
    output reads position `(512 t + a) mod 512 = a` of the column. -/
theorem written_back (c : Dev nD) (t : Fin cfg0.N) :
    (dats m 0 c).flushed 2 t
      = ((cfg0.win 2).blk t).view.read (Elt F) (rowScaled (F := F) (V m c main_v0) (V m c main_v4)) := by
  show (cfg0.win 2).cut (grid0.coords t) ((dats m 0 c).after 2 t) = _
  rw [after0_2]
  unfold out0_2
  rw [View.canon_unit_zero origin]
  simp only [View.ld_unit_zero (S := S512x3136) origin, View.ld_unit_zero (S := S512x1) origin]
  obtain ⟨e0, e1, e2, e3, e4, e5⟩ := block_of_step t
  funext j
  have hj0 : (j 0).val < 512 := (j 0).isLt
  have hj1 : (j 1).val < 3136 := (j 1).isLt
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 3136 + 1 * (j 1).val = win0_2.index t (1 : Fin 2) * 3136 + 1 * (j 1).val; omega
  have h1 : ((cfg0.win 1).blk t).view.emb (ix2 (⟨(j 0).val, (j 0).isLt⟩ : Fin 512) (⟨0, Nat.one_pos⟩ : Fin 1))
      = ix2 (⟨((((cfg0.win 2).blk t).view.emb j) 0).val % 512, Nat.mod_lt _ (by decide)⟩ : Fin 512) (⟨0, Nat.one_pos⟩ : Fin 1) := by
    funext a; apply Fin.ext
    match a with
    | ⟨0, _⟩ => show win0_1.index t (0 : Fin 2) * 512 + 1 * (j 0).val = (win0_2.index t (0 : Fin 2) * 512 + 1 * (j 0).val) % 512; omega
    | ⟨1, _⟩ => show win0_1.index t (1 : Fin 2) * 1 + 1 * 0 = 0; omega
  refine (product_apply (iblk m c 0 t) (iblk m c 1 t) j).trans ?_
  exact congrArg₂ FloatOps.mulf (congrArg (V m c main_v0) h0) (congrArg (V m c main_v4) h1)

/-- An entry of the output matrix is in step `t`'s block iff each of its coordinates is in the block's range. -/
theorem in_block (t : Fin cfg0.N) (i : S8192x3136.Idx) :
    i ∈ ((cfg0.win 2).blk t).view.set ↔ ∀ a : Fin 2, win0_2.index t a * S512x3136.size a ≤ (i a).val ∧ (i a).val < win0_2.index t a * S512x3136.size a + S512x3136.size a := by
  show i ∈ ((View.whole main_v5).slice (win0_2.rect t)).set ↔ _
  rw [View.set_slice_whole, Rect.mem_set_unit]
  exact Iff.rfl

/-- Every entry of the output matrix is written back by some step: row `r` by step `r / 512`. -/
theorem covered (i : S8192x3136.Idx) :
    ∃ t : Fin cfg0.N, (cfg0.win 2).flush t = true ∧ i ∈ ((cfg0.win 2).blk t).view.set := by
  have hi0 : (i 0).val < 8192 := (i 0).isLt
  have hi1 : (i 1).val < 3136 := (i 1).isLt
  obtain ⟨t, ht⟩ : ∃ t : Fin cfg0.N, t.val = (i 0).val / 512 :=
    ⟨⟨(i 0).val / 512, by show _ < grid0.N; rw [N_0]; omega⟩, rfl⟩
  obtain ⟨e0, e1, e2, e3, e4, e5⟩ := block_of_step t
  refine ⟨t, flush0_2 t, ?_⟩
  rw [in_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3136 ≤ (i 1).val ∧ (i 1).val < win0_2.index t (1 : Fin 2) * 3136 + 3136; omega

/-- THE OUTPUT MATRIX after the 16 steps is the row-scaled matrix, of the input matrix and the column of factors as the
    region finds them. -/
theorem output_matrix (c : Dev nD) :
    (dats m 0 c).arrAt 2 cfg0.N = rowScaled (F := F) (V m c main_v0) (V m c main_v4) :=
  (dats m 0 c).arrAt_eq_of_cover 2 _ (fun t _ => written_back m c t) covered

end Cert.KernelIdeal.Rows

end
-- ==== Proof.KernelRun.lean ====
/-
  The idealized kernel's whole run: its result is the channel-scaled batch.

  Around the pipelined region the program only re-arranges entries. BEFORE it: the batch [32, 256, 56, 56] is laid out
  as the matrix [8192, 3136]; the 256 channel factors are written as one row, the row is repeated, the two rows are put
  end to end (512 factors) and stood up as a column [512, 1]. AFTER it: the output matrix is arranged as a batch
  [32, 256, 56, 56] again, and that is the result.

  The region leaves the row-scaled matrix (`Rows.output_matrix`) of what it finds; what it finds are those two
  re-arrangements of the arguments; the column has the factor of channel `r mod 256` at position `r`
  (`ChannelScale.tiled_apply`); and arranging the row-scaled matrix as a batch gives the channel-scaled batch
  (`ChannelScale.unflatten_rowScaled`). The arguments themselves are written by no operation.
-/
import proofs.«104782_j58600533786808_2_alg».proof.Proof.KernelRows
import Idealize.ShloMosaic.Lib.StableHlo.Run

set_option maxRecDepth 16384

noncomputable section

namespace Cert.KernelIdeal.Whole

open Cert.KernelIdeal Cert.KernelIdeal.Gen Cert.ChannelScale
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ) (ρ : Dev nD → PrngReg)

/-- The matrix the region finds is the batch argument laid out as [8192, 3136]. -/
theorem found_matrix (c : Dev nD) :
    (V m c main_v0 : S8192x3136.Idx → Elt F .f32)
      = shapeCast S8192x3136 (m ((c : Thread nD τ).loc main_arg0)) shapeCasts_S32x256x56x56_S8192x3136 := by
  show StableHlo.after hostOps0 (fun b => m (c, b)) (Proc.devRef .tc main_v0) = _
  after_results
  rfl

/-- The column the region finds is the factor argument as a row, repeated, put end to end, stood up. -/
theorem found_column (c : Dev nD) :
    (V m c main_v4 : S512x1.Idx → Elt F .f32)
      = shapeCast S512x1 (shapeCast S512 (broadcastInDim S2x256 (![0, 1] : Fin 2 → Fin 2) bcast_S1x256_S2x256_0_1
          (shapeCast S1x256 (m ((c : Thread nD τ).loc main_arg1)) shapeCasts_S256_S1x256)) shapeCasts_S2x256_S512)
          shapeCasts_S512_S512x1 := by
  show StableHlo.after hostOps0 (fun b => m (c, b)) (Proc.devRef .tc main_v4) = _
  after_results
  rfl

/-- The result buffer after the operation that follows the region: the region's output matrix arranged as a batch. -/
theorem result_of_output (c : Dev nD) :
    Pipeline.afterTail₀ cfgs (dats m) 0 (V0 m) [hostOps1] c main_v6
      = shapeCast S32x256x56x56 ((dats m 0 c).arrAt 2 cfg0.N) shapeCasts_S8192x3136_S32x256x56x56 := by
  unfold Pipeline.afterTail₀
  show StableHlo.after hostOps1 _ (Proc.devRef .tc main_v6) = _
  after_results
  exact congrArg (fun X => shapeCast S32x256x56x56 X shapeCasts_S8192x3136_S32x256x56x56)
    (Pipeline.withArrays_arr spec0 launch0.win.arr_inj c _ _ 2)

/-- THE RESULT is the channel-scaled batch of the two arguments. -/
theorem result_eq (c : Dev nD) :
    Pipeline.afterTail₀ cfgs (dats m) 0 (V0 m) [hostOps1] c main_v6
      = chanScaled (F := F) (m ((c : Thread nD τ).loc main_arg0)) (m ((c : Thread nD τ).loc main_arg1)) := by
  rw [result_of_output, Rows.output_matrix, found_matrix, found_column]
  exact unflatten_rowScaled _ _ _
    (fun r => tiled_apply (m ((c : Thread nD τ).loc main_arg1)) shapeCasts_S256_S1x256 bcast_S1x256_S2x256_0_1
      shapeCasts_S2x256_S512 shapeCasts_S512_S512x1 r) _ _

/-- THE RUN: every weakly fair execution of the idealized kernel's program terminates, faultless, with the result buffer
    at the channel-scaled batch of the arguments and the arguments unchanged. -/
theorem run : θ_run defs (onTc (τ := τ) (main (F := F))) ⟨m, fun _ => 0, ρ⟩ fun r => ∀ c : Dev nD,
      r.2.mem ((c.tc : Thread nD τ).loc main_v6)
        = chanScaled (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.ReferenceScaled.lean ====
/-
  The reference computes the channel-scaled batch.

  It writes the 256 channel factors as an array [1, 256, 1, 1], spreads that over [32, 256, 56, 56] — entry
  (n, c, h, w) of the spread array is the factor of channel `c` — and multiplies the batch by it entry by entry, the
  batch's entry on the left: `x (n, c, h, w) · μ c`.
-/
import proofs.«104782_j58600533786808_2_alg».proof.Proof.Gen.ReferenceIdeal.Read
import proofs.«104782_j58600533786808_2_alg».proof.Proof.ChannelScale

noncomputable section

namespace Cert.ReferenceIdeal.Scaled

open Cert.ReferenceIdeal Cert.ReferenceIdeal.Gen Cert.ReferenceIdeal.Read Cert.ChannelScale
open Idealize.ShloMosaic Idealize.ShloMosaic.ValueIdx

variable {F : FTy → Type} [FloatOps F]

/-- The reference's last stage is the channel-scaled batch of its two arguments. -/
theorem stage_eq (x : (⟨S32x256x56x56, .f32⟩ : BufTy).Contents (Elt F)) (μ : (⟨S256, .f32⟩ : BufTy).Contents (Elt F)) :
    val_main_v2 (F := F) x μ = chanScaled (F := F) x μ := by
  funext i
  rw [val_main_v2_apply, val_main_v1_apply, val_main_v0_apply]
  unfold chanScaled
  refine congrArg (FloatOps.mulf (x i)) (congrArg μ ?_)
  funext d
  match d with
  | ⟨0, _⟩ => exact Fin.ext (by show ((0 * 256 + (i 1).val) * 1 + 0) * 1 + 0 = (i 1).val; omega)

end Cert.ReferenceIdeal.Scaled

end
-- ==== Proof.lean ====
/-
  A batch of images scaled channel by channel: the kernel and the reference compute the same array.

  Both programs take a batch `x` of shape [32, 256, 56, 56] and 256 channel factors `μ`, and both end with
  `x (n, c, h, w) · μ c` at (n, c, h, w) (`ChannelScale.chanScaled`).

  The reference spreads `μ` over the batch's shape and multiplies entry by entry (`ReferenceIdeal.Scaled.stage_eq`).
  The kernel lays the batch out as a matrix of 8192 rows (one per image and channel) by 3136 columns, builds a column
  of 512 factors holding the 256 channel factors twice, scales the matrix 512 rows at a time by that one column, and
  arranges the result as a batch again. Row `r = n · 256 + c` of the matrix is scaled by position `r mod 512` of the
  column, which holds the factor of channel `(r mod 512) mod 256 = c` (`KernelIdeal.Whole.run`, over
  `KernelIdeal.Rows.output_matrix` and `ChannelScale.unflatten_rowScaled`).

  Every entry of the result is ONE product of two of the inputs' entries, the batch's entry on the left in both
  programs, so the two results are the same extended real whatever the inputs hold: no law of arithmetic is used, and
  the hypothesis that the inputs are finite is not needed for the equality. The idealization rewrote no operation of
  the kernel, so that conjunct has nothing to state. Each program terminates without a fault and leaves its arguments
  as they were: for the two kernel programs this is their frame run, for the reference its run with the result dropped.
-/
import proofs.«104782_j58600533786808_2_alg».proof.Defs
import proofs.«104782_j58600533786808_2_alg».proof.Proof.Gen.Kernel
import proofs.«104782_j58600533786808_2_alg».proof.Proof.Gen.Kernel.Frame
import proofs.«104782_j58600533786808_2_alg».proof.Proof.Gen.KernelIdeal
import proofs.«104782_j58600533786808_2_alg».proof.Proof.Gen.KernelIdeal.Frame
import proofs.«104782_j58600533786808_2_alg».proof.Proof.Gen.ReferenceIdeal
import proofs.«104782_j58600533786808_2_alg».proof.Proof.Gen.Pre_finite_inputs
import proofs.«104782_j58600533786808_2_alg».proof.Proof.Gen.ReferenceIdeal.Run
import proofs.«104782_j58600533786808_2_alg».proof.Proof.Gen.ReferenceIdeal.Read
import proofs.«104782_j58600533786808_2_alg».proof.Proof.KernelRun
import proofs.«104782_j58600533786808_2_alg».proof.Proof.ReferenceScaled
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Over the extended reals, from memories that agree on the two arguments, the kernel and the reference both end with
    the channel-scaled batch of those arguments. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Scaled.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
